-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S1x4096 : Shape := ⟨2, ![1, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S2048x4096 .f32) (main_arg1 : FVec F S4096x4096 .f32) (main_arg2 : FVec F S1x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S1x4096 : Shape := ⟨2, ![1, 4096]⟩
abbrev S512x2048 : Shape := ⟨2, ![512, 2048]⟩
abbrev S2048x512 : Shape := ⟨2, ![2048, 512]⟩
abbrev S1x2048 : Shape := ⟨2, ![1, 2048]⟩
abbrev S512x512 : Shape := ⟨2, ![512, 512]⟩
abbrev S1x512 : Shape := ⟨2, ![1, 512]⟩

abbrev nBuf : Space → Nat
  | .hbm => 4
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S1x4096, .f32⟩
  | .hbm, ⟨3, _⟩ => ⟨S2048x4096, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  broadcasts_S1x512_S512x512 : S1x512.Broadcasts S512x512
  dot_S512x2048_S2048x512_S512x512_1_0_0_1_n_n_wf : DotDims.WF S512x2048 S2048x512 S512x512 [1] [0] [0] [1] [] []
  dot_S1x2048_S2048x512_S1x512_1_0_0_1_n_n_wf : DotDims.WF S1x2048 S2048x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x4096.size a
  hwx0_0 : ∀ i : grid0.Coords, EltTy.bits .f32 = 32 ∨ (Rect.block (s := S2048x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .f32 = 32 ∨ (Rect.block (s := S4096x4096) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x4096.size a
  hwx0_3 : ∀ i : grid0.Coords, EltTy.bits .f32 = 32 ∨ (Rect.block (s := S2048x4096) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x4096.size a
  hwx0_4 : ∀ i : grid0.Coords, EltTy.bits .f32 = 32 ∨ (Rect.block (s := S2048x4096) S512x512.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S1x4096, .f32⟩
  | .hbm, ⟨3, _⟩ => ⟨S2048x4096, .f32⟩
  | .hbm, ⟨4, _⟩ => ⟨S2048x4096, .f32⟩
  | .hbm, ⟨5, _⟩ => ⟨S1x4096, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S1x4096_S2048x4096_0_1 : S1x4096.BroadcastsInDim S2048x4096 (![0, 1] : Fin 2 → Fin S2048x4096.rank)
  bcast_S_S2048x4096 : S_.BroadcastsInDim S2048x4096 (![] : Fin 0 → Fin S2048x4096.rank)
  dot_S2048x4096_S4096x4096_S2048x4096_1_0_0_1_n_n_wf : DotDims.WF S2048x4096 S4096x4096 S2048x4096 [1] [0] [0] [1] [] []
  dot_S1x4096_S4096x4096_S1x4096_1_0_0_1_n_n_wf : DotDims.WF S1x4096 S4096x4096 S1x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf

class Facts : Prop extends Facts₀ where

variable [Facts]
-- ==== Proof.LibSharedTrack.lean ====
/-
  The frame run of a one-region kernel whose INPUT windows may read one array and whose body CARRIES values
  between grid points in its scratch buffers.

  When two input windows read one array the array's full share is dealt between them: each window holds the
  array at its own share, enough to fetch its blocks, and no output window writes it; the certificate says how
  the buffers behind the arrays, each whole at the full share at the region-entry contents, make the windows'
  arrays at those shares (`hsplit`).

  The region invariant is the certificate's own, point by point: what the scratch buffers hold before each
  point. Before the first point the scratch buffers hold anything (the scoped rest yields the invariant,
  `hin`); after the last point their contents are forgotten (the invariant yields the scoped rest back,
  `hout`). The post is the usual one: every window's array at what the write-backs computed, every other
  unscoped buffer as the region found it.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run when input windows may share arrays and the body tracks its scratch: the layout facts but
    for the arrays' distinctness, the body obligation, nothing owed, @main up to the region with the buffers'
    contents there (`V`), how the arrays' buffers at those contents make the windows' arrays at their shares
    (`hsplit`), and the invariant obtained from the scoped rest before the first point (`hin`) and giving it
    back after the last (`hout`). -/
theorem θ_run_frame_shared_track
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) (Entails.of_eq (ownU_emb₁ _)) V hmain hsplit
    (fun _ => iprop(emp)) (fun _ => iprop(emp))
    (fun c => unscopedRest (Ix := Unit) (Name := ℕ) (U := UR sig nD τ) (Lvl := ℕ) (cfg).spec c (V c))
    (fun c => by iintro H; isplitr; · iempintro
                 iexact H)
    (fun c => (show _ ⊢ (scopedRest (Ix := Unit) (Name := ℕ) (U := UR sig nD τ) (Lvl := ℕ) (Val := Val) (cfg).spec c : sProp 𝕄) from by
                 iintro ⟨-, H⟩; iexact H).trans (hin c))
    (fun c => (hout c).trans (by iintro H; isplitr; · iempintro
                                 iexact H))
    (fun c s => ∀ b ∈ restRefs sig (cfg).spec, s.mem ((c.tc : Thread nD τ).loc b) = V c b)
    (fun c s' => by
      iintro ⟨-, HU, HSI⟩
      unfold unscopedRest
      imodintro
      iapply (pointsTo_read_all (restRefs sig (cfg).spec) (fun b => (c.tc : Thread nD τ).loc b) (V c) s')
      isplitl [HU] <;> iassumption)
    (fun s h c => ⟨(h c).1, (h c).2⟩)

end Idealize.ShloMosaic.Pipeline

end
-- ==== Proof.KernelSetup.lean ====
/-
  The projection kernel's region, before any point is run: the contents the region finds in the argument
  arrays, each window's block at a grid point read off them, the two branch conditions of the body decided
  over the grid (the contraction coordinate k is the point's number mod 2: the accumulators are reset where
  k = 0 and the result is written where k = 1), where the output window is idle and where it is written back,
  and the two scratch accumulators as memrefs.
-/
import proofs.«136320_j20916490731597_1_alg».proof.Proof.Gen.Kernel.Launch
import proofs.«136320_j20916490731597_1_alg».proof.Proof.Gen.Kernel.Skeleton
import proofs.«136320_j20916490731597_1_alg».proof.Proof.Gen.Kernel.Points
import proofs.«136320_j20916490731597_1_alg».proof.Proof.LibSharedTrack
import Idealize.ShloMosaic.Lib.Pipeline.FrameBody
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main and the region-entry contents -/

/-- The TensorCore buffers as the region finds them: @main is the region alone, so they hold the launch contents. -/
abbrev V (c : Dev nD) (b : Ref sig .tc) : Buf (Elt F) ((c : Thread nD τ).loc b) := m ((c : Thread nD τ).loc b)

/-- @main is the one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The accumulators are reset at this point: the contraction coordinate is 0. -/
abbrev condReset (i : grid0.Coords) : Prop := (Scalar.cmpi .ne (Scalar.extui (Scalar.cmpi .eq (BitVec.ofNat 32 (i 2).val) 0#32)) 0#32) = 1#1
/-- It holds at the even points. -/
theorem hcondReset : ∀ t : Fin cfg0.N, condReset (grid0.coords t) ↔ t.val % 2 = 0 :=
  (by decide +kernel : ∀ t : Fin grid0.N, condReset (grid0.coords t) ↔ t.val % 2 = 0)

/-- The result is written at this point: the contraction coordinate is the last. -/
abbrev condLast (i : grid0.Coords) : Prop := k0_cond2 i = 1#1
/-- It holds at the odd points. -/
theorem hcondLast : ∀ t : Fin cfg0.N, condLast (grid0.coords t) ↔ t.val % 2 = 1 :=
  (by decide +kernel : ∀ t : Fin grid0.N, condLast (grid0.coords t) ↔ t.val % 2 = 1)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- At the even points the output window is idle and not written back. -/
theorem idle4_even : ∀ t : Fin cfg0.N, t.val % 2 = 0 → cfg0.idle 4 (grid0.coords t) = true := by decide +kernel
theorem noFlush4_even : ∀ t : Fin cfg0.N, t.val % 2 = 0 → (cfg0.win 4).flush t = false := by decide +kernel
/-- At the odd points it is live. -/
theorem live4_odd : ∀ t : Fin cfg0.N, t.val % 2 = 1 → cfg0.idle 4 (grid0.coords t) = false := by decide +kernel

/-! ## The staging memrefs and the scratch accumulators -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
/-- The accumulator of the x·projection tile. -/
abbrev accM : Memref sig .tc .vmem S512x512 .f32 := Memref.whole cc0_scratch0
/-- The accumulator of the z·projection row. -/
abbrev rowM : Memref sig .tc .vmem S1x512 .f32 := Memref.whole cc0_scratch1

/-- The scoped rest is the two accumulators, each at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ (∃ d, owns (c : Thread nD τ) rowM fullShare d)) := by
  rw [scopedRest0_eq]; simp only [accM, rowM, owns_whole]; rfl

end Cert.Kernel.Fr

end
-- ==== Proof.LibWholeBuffer.lean ====
/-
  Whole-buffer round trips. A kernel that keeps a carried value in a scratch buffer stores it through the rectangle that is
  the whole buffer (zero offsets, the buffer's own sizes) and loads it back through the same rectangle. Two facts make
  such a buffer transparent to a value proof: a load through the whole-buffer rectangle, after a list of writes whose LAST
  one stored the whole buffer, reads that store's payload, whatever was written before and whatever the buffer held; and a
  whole staging buffer whose contents read as `x` is read back as `x` through the whole-buffer rectangle.
-/
import Idealize.ShloMosaic.Lib.Pipeline.Value

noncomputable section

namespace Cert.LibWholeBuffer

open Idealize.ShloMosaic

variable {Val : EltTy → Type} {sig : RefSig} {κ : Kind} {sp : Space} {S : Shape} {e : EltTy}

/-- A load of a whole buffer, after writes the last of which stored the whole buffer, reads that store's payload. -/
theorem readAt_whole_writes_cons [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.readAt Val (Rect.unit off S.size inb).toLoadRect
      (v.writes Val f ((⟨Rect.unit off S.size inb, w⟩ : View.Piece Val S e) :: L)) = w := by
  rw [View.readAt_eq_ld, View.read_writes_eq_canon _ _ _ (fun y => ⟨_, List.mem_cons_self, View.mem_set_unit_zero h inb y⟩),
    View.canon_cons_unit_zero h, View.ld_unit_zero h]

/-- A whole staging buffer holding `x` reads back `x` through the whole-buffer rectangle. -/
theorem readAt_whole_unread (mr : Memref sig κ sp S e) (h : mr.IsWhole) (x : S.Idx → Val e)
    {off : Fin S.rank → Nat} (hz : off = fun _ => 0) (inb : ∀ a, off a + S.size a ≤ S.size a) :
    View.readAt Val mr.view (Rect.unit off S.size inb).toLoadRect (h.unread x) = x := by
  rw [View.readAt_eq_ld, h.read_unread, View.ld_unit_zero hz]

/-- The zero offsets of a whole rank-2 buffer, as a literal vector. -/
theorem off2_zero : (![0, 0] : Fin 2 → Nat) = fun _ => 0 :=
  funext fun a => by match a with | ⟨0, _⟩ => rfl | ⟨1, _⟩ => rfl

/-- The zero offsets of a whole rank-3 buffer, as a literal vector. -/
theorem off3_zero : (![0, 0, 0] : Fin 3 → Nat) = fun _ => 0 :=
  funext fun a => by match a with | ⟨0, _⟩ => rfl | ⟨1, _⟩ => rfl | ⟨2, _⟩ => rfl

end Cert.LibWholeBuffer

end
-- ==== Proof.LibWholeRead.lean ====
/-
  A buffer read whole after a whole-buffer store. A kernel that rewrites an accumulator whole at every grid point
  stores through the rectangle that is the whole buffer; whatever was stored before and whatever the buffer held,
  reading the buffer back gives that last store's payload.
-/
import Idealize.ShloMosaic.Lib.Pipeline.Value

noncomputable section

namespace Cert.LibWholeRead

open Idealize.ShloMosaic

variable {Val : EltTy → Type} {sig : RefSig} {κ : Kind} {sp : Space} {S : Shape} {e : EltTy}

/-- The contents of a buffer after writes the last of which stored the whole buffer, read back, are that store's payload. -/
theorem read_whole_writes_cons [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Cert.LibWholeRead

end
-- ==== Proof.KernelRuns.lean ====
/-
  The kernel body run once, on whole staging buffers, in each of its two cases.

  At a point where the contraction coordinate is 0 the body zeroes both accumulators and adds this point's
  products into them: the tile accumulator ends at the product of the x block and the projection block (added
  to zero), the row accumulator at the product of the z block and the projection block; the output buffer is
  not touched. At a point where the contraction coordinate is the last it adds this point's products to what the
  accumulators held and stores, in the output buffer, max(x block - tile accumulator + row accumulator, 0).
  In both cases the input buffers are left as found.
-/
import proofs.«136320_j20916490731597_1_alg».proof.Proof.KernelSetup
import proofs.«136320_j20916490731597_1_alg».proof.Proof.LibWholeBuffer
import proofs.«136320_j20916490731597_1_alg».proof.Proof.LibWholeRead

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.LibWholeBuffer Cert.LibWholeRead

set_option maxHeartbeats 4000000 in
/-- The body where the accumulators are reset: they end at this point's products over zero; the output buffer keeps its contents. -/
theorem runReset (c : Dev nD) (i : grid0.Coords) (arg3 : Memref sig .tc .vmem S512x2048 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (hc1 : condReset i) (hc2 : ¬condLast i)
    (x0 : Vec F S512x2048 .f32) (x1 : Vec F S2048x512 .f32) (x2 : Vec F S1x2048 .f32) (x3 : Vec F S512x512 .f32) (y : Vec F S512x512 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare y
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare y
            ∗ owns (c : Thread nD τ) arg8 fullShare (k0_pay4 x0 x1 (k0_pay1 (F := F))) ∗ owns (c : Thread nD τ) arg9 fullShare (k0_pay5 x1 x2 (k0_pay2 (F := F)))) -∗ K ⟨⟩))
      ⊢ wp frame (wpE (defs₀ (F := F)) Variants.none c none) E (cc0__pcav_kernel i arg3 harg3 arg4 harg4 arg5 harg5 arg6 harg6 arg7 harg7 arg8 harg8 arg9 harg9) K := by
  simp only [cc0__pcav_kernel_eq_skeleton]; unfold cc0__pcav_kernel_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H8]
  · iexists _; isplitr
    swap; · iexact H8
    ipureintro
    rw [read_whole_writes_cons _ _ off2_zero]
    sl_unfold_run_names
    rw [readAt_whole_unread arg3 harg3 x0 off2_zero, readAt_whole_unread arg4 harg4 x1 off2_zero,
      View.readCov_unit_zero (S := S512x512) arg8.view off2_zero]
  · iexists _; isplitr
    swap; · iexact H9
    ipureintro
    rw [read_whole_writes_cons _ _ off2_zero]
    sl_unfold_run_names
    rw [readAt_whole_unread arg4 harg4 x1 off2_zero, readAt_whole_unread arg5 harg5 x2 off2_zero,
      View.readCov_unit_zero (S := S1x512) arg9.view off2_zero]

set_option maxHeartbeats 4000000 in
/-- The body where the result is written: the accumulators, found at `a` and `b`, end at this point's products
    over them, and the output buffer at the rectified combination of the x block with them. -/
theorem runLast (c : Dev nD) (i : grid0.Coords) (arg3 : Memref sig .tc .vmem S512x2048 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (hc1 : ¬condReset i) (hc2 : condLast i)
    (x0 : Vec F S512x2048 .f32) (x1 : Vec F S2048x512 .f32) (x2 : Vec F S1x2048 .f32) (x3 : Vec F S512x512 .f32)
    (a : Vec F S512x512 .f32) (b : Vec F S1x512 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ owns (c : Thread nD τ) arg8 fullShare a ∗ owns (c : Thread nD τ) arg9 fullShare b
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay6 x3 (k0_pay4 x0 x1 a) (k0_pay5 x1 x2 b))
            ∗ owns (c : Thread nD τ) arg8 fullShare (k0_pay4 x0 x1 a) ∗ owns (c : Thread nD τ) arg9 fullShare (k0_pay5 x1 x2 b)) -∗ K ⟨⟩))
      ⊢ wp frame (wpE (defs₀ (F := F)) Variants.none c none) E (cc0__pcav_kernel i arg3 harg3 arg4 harg4 arg5 harg5 arg6 harg6 arg7 harg7 arg8 harg8 arg9 harg9) K := by
  simp only [cc0__pcav_kernel_eq_skeleton]; unfold cc0__pcav_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3; obtain rfl := harg8.eq_unread hf8; obtain rfl := harg9.eq_unread hf9
  sl_exec (disch := first | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H7]
  · iexists _; isplitr
    swap; · iexact H7
    ipureintro
    rw [read_whole_writes_cons _ _ off2_zero]
    sl_unfold_run_names
    rw [readAt_whole_unread arg6 harg6 x3 off2_zero, View.readCov_unit_zero (S := S512x512) arg8.view off2_zero,
      View.readCov_unit_zero (S := S1x512) arg9.view off2_zero,
      readAt_whole_unread arg3 harg3 x0 off2_zero, readAt_whole_unread arg4 harg4 x1 off2_zero,
      readAt_whole_unread arg5 harg5 x2 off2_zero,
      readAt_whole_unread arg8 harg8 a off2_zero, readAt_whole_unread arg9 harg9 b off2_zero]
  isplitl [H8]
  · iexists _; isplitr
    swap; · iexact H8
    ipureintro
    sl_unfold_run_names
    rw [read_whole_writes_cons _ _ off2_zero]
    rw [readAt_whole_unread arg3 harg3 x0 off2_zero, readAt_whole_unread arg4 harg4 x1 off2_zero,
      readAt_whole_unread arg8 harg8 a off2_zero]
  · iexists _; isplitr
    swap; · iexact H9
    ipureintro
    sl_unfold_run_names
    rw [read_whole_writes_cons _ _ off2_zero]
    rw [readAt_whole_unread arg4 harg4 x1 off2_zero, readAt_whole_unread arg5 harg5 x2 off2_zero,
      readAt_whole_unread arg9 harg9 b off2_zero]

end Cert.Kernel.Fr

end
-- ==== Proof.KernelFrame.lean ====
/-
  The projection kernel's frame: what the two accumulators and the output buffer hold after each grid point,
  the region invariant that tracks the accumulators, the body obligation at every point, and the run.

  Points come in pairs along the contraction axis: at an even point t the accumulators are reset, so after it
  they hold that point's products over zero; at the odd point t they hold its products over what point t - 1
  left, and the output buffer receives max(x block - tile accumulator + row accumulator, 0), which is then
  written back. Two input windows read the first argument array (once as the left factor of the product, once
  as the term the product is subtracted from): the array's full share is halved between them.
-/
import proofs.«136320_j20916490731597_1_alg».proof.Proof.KernelRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulators and the output buffer hold after each point -/

/-- The tile accumulator after point `n`: this point's product over zero at an even point, over the even point
    before it at an odd one. -/
def accAt (c : Dev nD) (n : ℕ) (hn : n < cfg0.N) : Vec F S512x512 .f32 :=
  if n % 2 = 0 then k0_pay4 (iblk m c 0 ⟨n, hn⟩) (iblk m c 1 ⟨n, hn⟩) (k0_pay1 (F := F))
  else k0_pay4 (iblk m c 0 ⟨n, hn⟩) (iblk m c 1 ⟨n, hn⟩)
    (k0_pay4 (iblk m c 0 ⟨n - 1, lt_of_le_of_lt (Nat.sub_le _ _) hn⟩) (iblk m c 1 ⟨n - 1, lt_of_le_of_lt (Nat.sub_le _ _) hn⟩) (k0_pay1 (F := F)))

/-- The row accumulator after point `n`, likewise. -/
def rowAt (c : Dev nD) (n : ℕ) (hn : n < cfg0.N) : Vec F S1x512 .f32 :=
  if n % 2 = 0 then k0_pay5 (iblk m c 1 ⟨n, hn⟩) (iblk m c 2 ⟨n, hn⟩) (k0_pay2 (F := F))
  else k0_pay5 (iblk m c 1 ⟨n, hn⟩) (iblk m c 2 ⟨n, hn⟩)
    (k0_pay5 (iblk m c 1 ⟨n - 1, lt_of_le_of_lt (Nat.sub_le _ _) hn⟩) (iblk m c 2 ⟨n - 1, lt_of_le_of_lt (Nat.sub_le _ _) hn⟩) (k0_pay2 (F := F)))

/-- The output buffer after point `n` (read only at the odd points, where it is stored and written back). -/
def outAt (c : Dev nD) (n : ℕ) (hn : n < cfg0.N) : Vec F S512x512 .f32 :=
  k0_pay6 (iblk m c 3 ⟨n, hn⟩) (accAt m c n hn) (rowAt m c n hn)

theorem accAt_even (c : Dev nD) (t : Fin cfg0.N) (h : t.val % 2 = 0) :
    accAt m c t.val t.isLt = k0_pay4 (iblk m c 0 t) (iblk m c 1 t) (k0_pay1 (F := F)) := if_pos h
theorem rowAt_even (c : Dev nD) (t : Fin cfg0.N) (h : t.val % 2 = 0) :
    rowAt m c t.val t.isLt = k0_pay5 (iblk m c 1 t) (iblk m c 2 t) (k0_pay2 (F := F)) := if_pos h

theorem accAt_odd (c : Dev nD) (t : Fin cfg0.N) (h : ¬t.val % 2 = 0) :
    accAt m c t.val t.isLt = k0_pay4 (iblk m c 0 t) (iblk m c 1 t) (accAt m c (t.val - 1) (lt_of_le_of_lt (Nat.sub_le _ _) t.isLt)) := by
  have he : (t.val - 1) % 2 = 0 := by omega
  unfold accAt
  rw [if_neg h, if_pos he]
theorem rowAt_odd (c : Dev nD) (t : Fin cfg0.N) (h : ¬t.val % 2 = 0) :
    rowAt m c t.val t.isLt = k0_pay5 (iblk m c 1 t) (iblk m c 2 t) (rowAt m c (t.val - 1) (lt_of_le_of_lt (Nat.sub_le _ _) t.isLt)) := by
  have he : (t.val - 1) % 2 = 0 := by omega
  unfold rowAt
  rw [if_neg h, if_pos he]

/-! ## The region invariant -/

/-- Before point `n`: at the first point the accumulators hold anything (the scoped rest); afterwards what the
    point before left in them. -/
def PhiS (c : Dev nD) : (n : ℕ) → n ≤ cfg0.N → sProp 𝕄
  | 0, _ => (Pipeline.scopedRest (Ix := Unit) (Name := ℕ) (U := UR sig nD τ) (Lvl := ℕ) (Val := Elt F) spec0 c : sProp 𝕄)
  | n + 1, hn => iprop(owns (c : Thread nD τ) accM fullShare (accAt m c n hn) ∗ owns (c : Thread nD τ) rowM fullShare (rowAt m c n hn))

theorem PhiS_succ (c : Dev nD) (n : ℕ) (hn : n < cfg0.N) :
    PhiS m c (n + 1) hn = iprop(owns (c : Thread nD τ) accM fullShare (accAt m c n hn) ∗ owns (c : Thread nD τ) rowM fullShare (rowAt m c n hn)) := rfl

theorem PhiS_pos (c : Dev nD) (n : ℕ) (h : n ≤ cfg0.N) (hz : n ≠ 0) :
    PhiS m c n h = iprop(owns (c : Thread nD τ) accM fullShare (accAt m c (n - 1) (by omega)) ∗ owns (c : Thread nD τ) rowM fullShare (rowAt m c (n - 1) (by omega))) := by
  cases n with
  | zero => exact absurd rfl hz
  | succ n => rfl

/-- Whatever the point, the invariant holds both accumulators at some contents. -/
theorem PhiS_any (c : Dev nD) (n : ℕ) (h : n ≤ cfg0.N) :
    PhiS m c n h ⊢ iprop((∃ d, owns (c : Thread nD τ) accM fullShare d) ∗ (∃ d, owns (c : Thread nD τ) rowM fullShare d)) := by
  cases n with
  | zero =>
    show (Pipeline.scopedRest (Ix := Unit) (Name := ℕ) (U := UR sig nD τ) (Lvl := ℕ) (Val := Elt F) spec0 c : sProp 𝕄) ⊢ _
    rw [scopedRest_eq]
  | succ n =>
    rw [PhiS_succ]
    iintro ⟨H0, H1⟩
    isplitl [H0]
    · iexists _; iexact H0
    iexists _; iexact H1

/-! ## The proof data -/

/-- The arrays as the region finds them; after the body each input's buffer at its block, the output's at
    `outAt`; the invariant `PhiS`; the first argument array's share halved between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q w := match w with
    | ⟨0, _⟩ => fullShare.left
    | ⟨1, _⟩ => fullShare
    | ⟨2, _⟩ => fullShare
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t.val t.isLt := by dsimp only [dats]

/-- Each input's current staging buffer holds its block at every point, fetched there or not: the window of the
    term the product is subtracted from is fetched only where the contraction coordinate is 0, and its block index
    does not move along that axis. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]
theorem leaves4_odd (c : Dev nD) (t : Fin cfg0.N) (h : t.val % 2 = 1) :
    (dats m 0 c).leavesExact 4 t = owns (c : Thread nD τ) (ms4 t) fullShare (outAt m c t.val t.isLt) := by
  rw [show (dats m 0 c).leavesExact 4 t = owns (c : Thread nD τ) (ms4 t) fullShare ((dats m 0 c).after 4 t) from by
    unfold Dat.leavesExact; rw [live4_odd t h], after4]

set_option maxHeartbeats 4000000 in
/-- The body at any point, by the parity of the point: at an even point the run that resets the accumulators, from
    whatever they held; at an odd point the run that adds to what the point before left and stores the result. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases h0 : t.val % 2 = 0
  · have h1 : ¬t.val % 2 = 1 := by omega
    rw [Dat.leavesExact_idle (dats m 0 c) 4 t (idle4_even t h0) (noFlush4_even t h0)]
    rw [accAt_even m c t h0, rowAt_even m c t h0]
    rw [PhiS_castSucc m c t]
    iintro ⟨HΦ, Ho, ⟨%d0, H0⟩, ⟨%d1, H1⟩, ⟨%d2, H2⟩, ⟨%d3, H3⟩, ⟨%d4, H4⟩⟩
    ihave HΦ' := (PhiS_any m c t.val (Nat.le_of_lt t.isLt)) $$ HΦ
    icases HΦ' with ⟨HS0, HS1⟩
    iapply (runReset c (grid0.coords t) _ _ _ _ _ _ _ _ _ _ _ _ _ _ ((hcondReset t).mpr h0) (fun h => h1 ((hcondLast t).mp h))
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    iexists _; iexact H4
  · have h1 : t.val % 2 = 1 := by omega
    have hz : t.val ≠ 0 := by omega
    rw [leaves4_odd m c t h1]
    unfold outAt
    rw [accAt_odd m c t h0, rowAt_odd m c t h0]
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩⟩
    iapply (runLast c (grid0.coords t) _ _ _ _ _ _ _ _ _ _ _ _ _ _ (fun h => h0 ((hcondReset t).mp h)) ((hcondLast t).mpr h1)
      (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch's side conditions -/

/-- The scoped rest is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 :=
  .rfl

/-- After the last point the accumulators' contents are forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_eq]
  iintro ⟨H0, H1⟩
  isplitl [H0]
  · iexists _; iexact H0
  iexists _; iexact H1

/-- The four buffers behind the five windows' arrays make the windows' arrays at their shares: the first argument
    array's full share is halved between the two windows that read it. -/
theorem hsplit (c : Dev nD) :
    (Pipeline.arrBufs spec0 c (V m c) : sProp 𝕄) ⊢ (dats m 0 c).arrays ((dats m 0 c).arrAt · 0) := by
  have harrays : (dats m 0 c).arrays ((dats m 0 c).arrAt · 0)
      = bigSep Finset.univ fun w : Fin 5 => ((((c : Thread nD τ).loc (Pipeline.arrRef spec0 w)) ↦{(dats m 0 c).share w} (dats m 0 c).arrAt w 0) : sProp 𝕄) := by
    unfold Dat.arrays
    exact bigSep_congr fun w _ => by rw [(arr_whole0 w).set_eq_univ]
  have e : (bigSep (Finset.univ.image (Pipeline.arrRef spec0)) fun b => ((c : Thread nD τ).loc b) ↦{fullShare} V m c b : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_v0) ↦{fullShare} V m c main_v0)) :=
    bigSep_eq_bigSepL_of_eq [main_arg0, main_arg1, main_arg2, main_v0] (by decide) (by decide) _
  have hs0 : (dats m 0 c).share 0 = fullShare.left := rfl
  have hs1 : (dats m 0 c).share 1 = fullShare := rfl
  have hs2 : (dats m 0 c).share 2 = fullShare := rfl
  have hs3 : (dats m 0 c).share 3 = fullShare.right := rfl
  have hs4 : (dats m 0 c).share 4 = fullShare := rfl
  have ha : ∀ w, (dats m 0 c).arrAt w 0 = V m c (Pipeline.arrRef spec0 w) := fun w => A_eq m c w
  unfold Pipeline.arrBufs
  rw [harrays, e, bigSep_W0, hs0, hs1, hs2, hs3, hs4, ha 0, ha 1, ha 2, ha 3, ha 4]
  iintro ⟨H0, H1, H2, H4⟩
  ihave H0' := (pointsTo_share (PosShare.mem_left_op_right fullShare)).1 $$ H0
  icases H0' with ⟨H0l, H0r⟩
  isplitl [H0l]; · iexact H0l
  isplitl [H1]; · iexact H1
  isplitl [H2]; · iexact H2
  isplitl [H0r]; · iexact H0r
  iexact H4

/-! ## The run and the frame -/

set_option backward.isDefEq.respectTransparency.types false in
/-- Every weakly fair execution of @main terminates, and every final state has each window's array at what the
    write-backs computed from the proof data. -/
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0
    m ρ main (fun c => (body_obligation m c).loose) (fun _ _ => rfl) (V m) (hmain m Variants.none) (hsplit m) (hin m) (hout m)

/-- The frame: the run terminates, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 2).trans (((dats m 0 c).arrAt_in 2 rfl _).trans (A_eq m c 2))⟩) (run_main m ρ)

end Cert.Kernel.Fr

end
-- ==== Proof.KernelIdealSetup.lean ====
/-
  The projection kernel's region, before any point is run: the contents the region finds in the argument
  arrays, each window's block at a grid point read off them, the two branch conditions of the body decided
  over the grid (the contraction coordinate k is the point's number mod 2: the accumulators are reset where
  k = 0 and the result is written where k = 1), where the output window is idle and where it is written back,
  and the two scratch accumulators as memrefs.
-/
import proofs.«136320_j20916490731597_1_alg».proof.Proof.Gen.KernelIdeal.Launch
import proofs.«136320_j20916490731597_1_alg».proof.Proof.Gen.KernelIdeal.Skeleton
import proofs.«136320_j20916490731597_1_alg».proof.Proof.Gen.KernelIdeal.Points
import proofs.«136320_j20916490731597_1_alg».proof.Proof.LibSharedTrack
import Idealize.ShloMosaic.Lib.Pipeline.FrameBody
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main and the region-entry contents -/

/-- The TensorCore buffers as the region finds them: @main is the region alone, so they hold the launch contents. -/
abbrev V (c : Dev nD) (b : Ref sig .tc) : Buf (Elt F) ((c : Thread nD τ).loc b) := m ((c : Thread nD τ).loc b)

/-- @main is the one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The accumulators are reset at this point: the contraction coordinate is 0. -/
abbrev condReset (i : grid0.Coords) : Prop := (Scalar.cmpi .ne (Scalar.extui (Scalar.cmpi .eq (BitVec.ofNat 32 (i 2).val) 0#32)) 0#32) = 1#1
/-- It holds at the even points. -/
theorem hcondReset : ∀ t : Fin cfg0.N, condReset (grid0.coords t) ↔ t.val % 2 = 0 :=
  (by decide +kernel : ∀ t : Fin grid0.N, condReset (grid0.coords t) ↔ t.val % 2 = 0)

/-- The result is written at this point: the contraction coordinate is the last. -/
abbrev condLast (i : grid0.Coords) : Prop := k0_cond2 i = 1#1
/-- It holds at the odd points. -/
theorem hcondLast : ∀ t : Fin cfg0.N, condLast (grid0.coords t) ↔ t.val % 2 = 1 :=
  (by decide +kernel : ∀ t : Fin grid0.N, condLast (grid0.coords t) ↔ t.val % 2 = 1)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- At the even points the output window is idle and not written back. -/
theorem idle4_even : ∀ t : Fin cfg0.N, t.val % 2 = 0 → cfg0.idle 4 (grid0.coords t) = true := by decide +kernel
theorem noFlush4_even : ∀ t : Fin cfg0.N, t.val % 2 = 0 → (cfg0.win 4).flush t = false := by decide +kernel
/-- At the odd points it is live. -/
theorem live4_odd : ∀ t : Fin cfg0.N, t.val % 2 = 1 → cfg0.idle 4 (grid0.coords t) = false := by decide +kernel

/-! ## The staging memrefs and the scratch accumulators -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
/-- The accumulator of the x·projection tile. -/
abbrev accM : Memref sig .tc .vmem S512x512 .f32 := Memref.whole cc0_scratch0
/-- The accumulator of the z·projection row. -/
abbrev rowM : Memref sig .tc .vmem S1x512 .f32 := Memref.whole cc0_scratch1

/-- The scoped rest is the two accumulators, each at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ (∃ d, owns (c : Thread nD τ) rowM fullShare d)) := by
  rw [scopedRest0_eq]; simp only [accM, rowM, owns_whole]; rfl

end Cert.KernelIdeal.Fr

end
-- ==== Proof.KernelIdealRuns.lean ====
/-
  The kernel body run once, on whole staging buffers, in each of its two cases.

  At a point where the contraction coordinate is 0 the body zeroes both accumulators and adds this point's
  products into them: the tile accumulator ends at the product of the x block and the projection block (added
  to zero), the row accumulator at the product of the z block and the projection block; the output buffer is
  not touched. At a point where the contraction coordinate is the last it adds this point's products to what the
  accumulators held and stores, in the output buffer, max(x block - tile accumulator + row accumulator, 0).
  In both cases the input buffers are left as found.
-/
import proofs.«136320_j20916490731597_1_alg».proof.Proof.KernelIdealSetup
import proofs.«136320_j20916490731597_1_alg».proof.Proof.LibWholeBuffer
import proofs.«136320_j20916490731597_1_alg».proof.Proof.LibWholeRead

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.LibWholeBuffer Cert.LibWholeRead

set_option maxHeartbeats 4000000 in
/-- The body where the accumulators are reset: they end at this point's products over zero; the output buffer keeps its contents. -/
theorem runReset (c : Dev nD) (i : grid0.Coords) (arg3 : Memref sig .tc .vmem S512x2048 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (hc1 : condReset i) (hc2 : ¬condLast i)
    (x0 : Vec F S512x2048 .f32) (x1 : Vec F S2048x512 .f32) (x2 : Vec F S1x2048 .f32) (x3 : Vec F S512x512 .f32) (y : Vec F S512x512 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare y
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare y
            ∗ owns (c : Thread nD τ) arg8 fullShare (k0_pay4 x0 x1 (k0_pay1 (F := F))) ∗ owns (c : Thread nD τ) arg9 fullShare (k0_pay5 x1 x2 (k0_pay2 (F := F)))) -∗ K ⟨⟩))
      ⊢ wp frame (wpE (defs₀ (F := F)) Variants.none c none) E (cc0__pcav_kernel i arg3 harg3 arg4 harg4 arg5 harg5 arg6 harg6 arg7 harg7 arg8 harg8 arg9 harg9) K := by
  simp only [cc0__pcav_kernel_eq_skeleton]; unfold cc0__pcav_kernel_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H4]
  · iexists _; isplitr
    · ipureintro; exact harg7.read_unread _
    iexact H4
  isplitl [H8]
  · iexists _; isplitr
    swap; · iexact H8
    ipureintro
    rw [read_whole_writes_cons _ _ off2_zero]
    sl_unfold_run_names
    rw [readAt_whole_unread arg3 harg3 x0 off2_zero, readAt_whole_unread arg4 harg4 x1 off2_zero,
      View.readCov_unit_zero (S := S512x512) arg8.view off2_zero]
  · iexists _; isplitr
    swap; · iexact H9
    ipureintro
    rw [read_whole_writes_cons _ _ off2_zero]
    sl_unfold_run_names
    rw [readAt_whole_unread arg4 harg4 x1 off2_zero, readAt_whole_unread arg5 harg5 x2 off2_zero,
      View.readCov_unit_zero (S := S1x512) arg9.view off2_zero]

set_option maxHeartbeats 4000000 in
/-- The body where the result is written: the accumulators, found at `a` and `b`, end at this point's products
    over them, and the output buffer at the rectified combination of the x block with them. -/
theorem runLast (c : Dev nD) (i : grid0.Coords) (arg3 : Memref sig .tc .vmem S512x2048 .f32) (harg3 : arg3.IsWhole) (arg4 : Memref sig .tc .vmem S2048x512 .f32) (harg4 : arg4.IsWhole) (arg5 : Memref sig .tc .vmem S1x2048 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (hc1 : ¬condReset i) (hc2 : condLast i)
    (x0 : Vec F S512x2048 .f32) (x1 : Vec F S2048x512 .f32) (x2 : Vec F S1x2048 .f32) (x3 : Vec F S512x512 .f32)
    (a : Vec F S512x512 .f32) (b : Vec F S1x512 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ owns (c : Thread nD τ) arg8 fullShare a ∗ owns (c : Thread nD τ) arg9 fullShare b
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay6 x3 (k0_pay4 x0 x1 a) (k0_pay5 x1 x2 b))
            ∗ owns (c : Thread nD τ) arg8 fullShare (k0_pay4 x0 x1 a) ∗ owns (c : Thread nD τ) arg9 fullShare (k0_pay5 x1 x2 b)) -∗ K ⟨⟩))
      ⊢ wp frame (wpE (defs₀ (F := F)) Variants.none c none) E (cc0__pcav_kernel i arg3 harg3 arg4 harg4 arg5 harg5 arg6 harg6 arg7 harg7 arg8 harg8 arg9 harg9) K := by
  simp only [cc0__pcav_kernel_eq_skeleton]; unfold cc0__pcav_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, Hk⟩
  obtain rfl := harg3.eq_unread hf0; obtain rfl := harg4.eq_unread hf1; obtain rfl := harg5.eq_unread hf2
  obtain rfl := harg6.eq_unread hf3; obtain rfl := harg8.eq_unread hf8; obtain rfl := harg9.eq_unread hf9
  sl_exec (disch := first | exact hc1 | exact hc2)
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    · ipureintro; exact harg6.read_unread _
    iexact H3
  isplitl [H7]
  · iexists _; isplitr
    swap; · iexact H7
    ipureintro
    rw [read_whole_writes_cons _ _ off2_zero]
    sl_unfold_run_names
    rw [readAt_whole_unread arg6 harg6 x3 off2_zero, View.readCov_unit_zero (S := S512x512) arg8.view off2_zero,
      View.readCov_unit_zero (S := S1x512) arg9.view off2_zero,
      readAt_whole_unread arg3 harg3 x0 off2_zero, readAt_whole_unread arg4 harg4 x1 off2_zero,
      readAt_whole_unread arg5 harg5 x2 off2_zero,
      readAt_whole_unread arg8 harg8 a off2_zero, readAt_whole_unread arg9 harg9 b off2_zero]
  isplitl [H8]
  · iexists _; isplitr
    swap; · iexact H8
    ipureintro
    sl_unfold_run_names
    rw [read_whole_writes_cons _ _ off2_zero]
    rw [readAt_whole_unread arg3 harg3 x0 off2_zero, readAt_whole_unread arg4 harg4 x1 off2_zero,
      readAt_whole_unread arg8 harg8 a off2_zero]
  · iexists _; isplitr
    swap; · iexact H9
    ipureintro
    sl_unfold_run_names
    rw [read_whole_writes_cons _ _ off2_zero]
    rw [readAt_whole_unread arg4 harg4 x1 off2_zero, readAt_whole_unread arg5 harg5 x2 off2_zero,
      readAt_whole_unread arg9 harg9 b off2_zero]

end Cert.KernelIdeal.Fr

end
-- ==== Proof.KernelIdealFrame.lean ====
/-
  The projection kernel's frame: what the two accumulators and the output buffer hold after each grid point,
  the region invariant that tracks the accumulators, the body obligation at every point, and the run.

  Points come in pairs along the contraction axis: at an even point t the accumulators are reset, so after it
  they hold that point's products over zero; at the odd point t they hold its products over what point t - 1
  left, and the output buffer receives max(x block - tile accumulator + row accumulator, 0), which is then
  written back. Two input windows read the first argument array (once as the left factor of the product, once
  as the term the product is subtracted from): the array's full share is halved between them.
-/
import proofs.«136320_j20916490731597_1_alg».proof.Proof.KernelIdealRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulators and the output buffer hold after each point -/

/-- The tile accumulator after point `n`: this point's product over zero at an even point, over the even point
    before it at an odd one. -/
def accAt (c : Dev nD) (n : ℕ) (hn : n < cfg0.N) : Vec F S512x512 .f32 :=
  if n % 2 = 0 then k0_pay4 (iblk m c 0 ⟨n, hn⟩) (iblk m c 1 ⟨n, hn⟩) (k0_pay1 (F := F))
  else k0_pay4 (iblk m c 0 ⟨n, hn⟩) (iblk m c 1 ⟨n, hn⟩)
    (k0_pay4 (iblk m c 0 ⟨n - 1, lt_of_le_of_lt (Nat.sub_le _ _) hn⟩) (iblk m c 1 ⟨n - 1, lt_of_le_of_lt (Nat.sub_le _ _) hn⟩) (k0_pay1 (F := F)))

/-- The row accumulator after point `n`, likewise. -/
def rowAt (c : Dev nD) (n : ℕ) (hn : n < cfg0.N) : Vec F S1x512 .f32 :=
  if n % 2 = 0 then k0_pay5 (iblk m c 1 ⟨n, hn⟩) (iblk m c 2 ⟨n, hn⟩) (k0_pay2 (F := F))
  else k0_pay5 (iblk m c 1 ⟨n, hn⟩) (iblk m c 2 ⟨n, hn⟩)
    (k0_pay5 (iblk m c 1 ⟨n - 1, lt_of_le_of_lt (Nat.sub_le _ _) hn⟩) (iblk m c 2 ⟨n - 1, lt_of_le_of_lt (Nat.sub_le _ _) hn⟩) (k0_pay2 (F := F)))

/-- The output buffer after point `n` (read only at the odd points, where it is stored and written back). -/
def outAt (c : Dev nD) (n : ℕ) (hn : n < cfg0.N) : Vec F S512x512 .f32 :=
  k0_pay6 (iblk m c 3 ⟨n, hn⟩) (accAt m c n hn) (rowAt m c n hn)

theorem accAt_even (c : Dev nD) (t : Fin cfg0.N) (h : t.val % 2 = 0) :
    accAt m c t.val t.isLt = k0_pay4 (iblk m c 0 t) (iblk m c 1 t) (k0_pay1 (F := F)) := if_pos h
theorem rowAt_even (c : Dev nD) (t : Fin cfg0.N) (h : t.val % 2 = 0) :
    rowAt m c t.val t.isLt = k0_pay5 (iblk m c 1 t) (iblk m c 2 t) (k0_pay2 (F := F)) := if_pos h

theorem accAt_odd (c : Dev nD) (t : Fin cfg0.N) (h : ¬t.val % 2 = 0) :
    accAt m c t.val t.isLt = k0_pay4 (iblk m c 0 t) (iblk m c 1 t) (accAt m c (t.val - 1) (lt_of_le_of_lt (Nat.sub_le _ _) t.isLt)) := by
  have he : (t.val - 1) % 2 = 0 := by omega
  unfold accAt
  rw [if_neg h, if_pos he]
theorem rowAt_odd (c : Dev nD) (t : Fin cfg0.N) (h : ¬t.val % 2 = 0) :
    rowAt m c t.val t.isLt = k0_pay5 (iblk m c 1 t) (iblk m c 2 t) (rowAt m c (t.val - 1) (lt_of_le_of_lt (Nat.sub_le _ _) t.isLt)) := by
  have he : (t.val - 1) % 2 = 0 := by omega
  unfold rowAt
  rw [if_neg h, if_pos he]

/-! ## The region invariant -/

/-- Before point `n`: at the first point the accumulators hold anything (the scoped rest); afterwards what the
    point before left in them. -/
def PhiS (c : Dev nD) : (n : ℕ) → n ≤ cfg0.N → sProp 𝕄
  | 0, _ => (Pipeline.scopedRest (Ix := Unit) (Name := ℕ) (U := UR sig nD τ) (Lvl := ℕ) (Val := Elt F) spec0 c : sProp 𝕄)
  | n + 1, hn => iprop(owns (c : Thread nD τ) accM fullShare (accAt m c n hn) ∗ owns (c : Thread nD τ) rowM fullShare (rowAt m c n hn))

theorem PhiS_succ (c : Dev nD) (n : ℕ) (hn : n < cfg0.N) :
    PhiS m c (n + 1) hn = iprop(owns (c : Thread nD τ) accM fullShare (accAt m c n hn) ∗ owns (c : Thread nD τ) rowM fullShare (rowAt m c n hn)) := rfl

theorem PhiS_pos (c : Dev nD) (n : ℕ) (h : n ≤ cfg0.N) (hz : n ≠ 0) :
    PhiS m c n h = iprop(owns (c : Thread nD τ) accM fullShare (accAt m c (n - 1) (by omega)) ∗ owns (c : Thread nD τ) rowM fullShare (rowAt m c (n - 1) (by omega))) := by
  cases n with
  | zero => exact absurd rfl hz
  | succ n => rfl

/-- Whatever the point, the invariant holds both accumulators at some contents. -/
theorem PhiS_any (c : Dev nD) (n : ℕ) (h : n ≤ cfg0.N) :
    PhiS m c n h ⊢ iprop((∃ d, owns (c : Thread nD τ) accM fullShare d) ∗ (∃ d, owns (c : Thread nD τ) rowM fullShare d)) := by
  cases n with
  | zero =>
    show (Pipeline.scopedRest (Ix := Unit) (Name := ℕ) (U := UR sig nD τ) (Lvl := ℕ) (Val := Elt F) spec0 c : sProp 𝕄) ⊢ _
    rw [scopedRest_eq]
  | succ n =>
    rw [PhiS_succ]
    iintro ⟨H0, H1⟩
    isplitl [H0]
    · iexists _; iexact H0
    iexists _; iexact H1

/-! ## The proof data -/

/-- The arrays as the region finds them; after the body each input's buffer at its block, the output's at
    `outAt`; the invariant `PhiS`; the first argument array's share halved between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q w := match w with
    | ⟨0, _⟩ => fullShare.left
    | ⟨1, _⟩ => fullShare
    | ⟨2, _⟩ => fullShare
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t.val t.isLt := by dsimp only [dats]

/-- Each input's current staging buffer holds its block at every point, fetched there or not: the window of the
    term the product is subtracted from is fetched only where the contraction coordinate is 0, and its block index
    does not move along that axis. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]
theorem leaves4_odd (c : Dev nD) (t : Fin cfg0.N) (h : t.val % 2 = 1) :
    (dats m 0 c).leavesExact 4 t = owns (c : Thread nD τ) (ms4 t) fullShare (outAt m c t.val t.isLt) := by
  rw [show (dats m 0 c).leavesExact 4 t = owns (c : Thread nD τ) (ms4 t) fullShare ((dats m 0 c).after 4 t) from by
    unfold Dat.leavesExact; rw [live4_odd t h], after4]

set_option maxHeartbeats 4000000 in
/-- The body at any point, by the parity of the point: at an even point the run that resets the accumulators, from
    whatever they held; at an odd point the run that adds to what the point before left and stores the result. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases h0 : t.val % 2 = 0
  · have h1 : ¬t.val % 2 = 1 := by omega
    rw [Dat.leavesExact_idle (dats m 0 c) 4 t (idle4_even t h0) (noFlush4_even t h0)]
    rw [accAt_even m c t h0, rowAt_even m c t h0]
    rw [PhiS_castSucc m c t]
    iintro ⟨HΦ, Ho, ⟨%d0, H0⟩, ⟨%d1, H1⟩, ⟨%d2, H2⟩, ⟨%d3, H3⟩, ⟨%d4, H4⟩⟩
    ihave HΦ' := (PhiS_any m c t.val (Nat.le_of_lt t.isLt)) $$ HΦ
    icases HΦ' with ⟨HS0, HS1⟩
    iapply (runReset c (grid0.coords t) _ _ _ _ _ _ _ _ _ _ _ _ _ _ ((hcondReset t).mpr h0) (fun h => h1 ((hcondLast t).mp h))
      (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    iexists _; iexact H4
  · have h1 : t.val % 2 = 1 := by omega
    have hz : t.val ≠ 0 := by omega
    rw [leaves4_odd m c t h1]
    unfold outAt
    rw [accAt_odd m c t h0, rowAt_odd m c t h0]
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩⟩
    iapply (runLast c (grid0.coords t) _ _ _ _ _ _ _ _ _ _ _ _ _ _ (fun h => h0 ((hcondReset t).mp h)) ((hcondLast t).mpr h1)
      (iblk m c 0 t) (iblk m c 1 t) (iblk m c 2 t) (iblk m c 3 t) _ _ Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, H4, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch's side conditions -/

/-- The scoped rest is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 :=
  .rfl

/-- After the last point the accumulators' contents are forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_eq]
  iintro ⟨H0, H1⟩
  isplitl [H0]
  · iexists _; iexact H0
  iexists _; iexact H1

/-- The four buffers behind the five windows' arrays make the windows' arrays at their shares: the first argument
    array's full share is halved between the two windows that read it. -/
theorem hsplit (c : Dev nD) :
    (Pipeline.arrBufs spec0 c (V m c) : sProp 𝕄) ⊢ (dats m 0 c).arrays ((dats m 0 c).arrAt · 0) := by
  have harrays : (dats m 0 c).arrays ((dats m 0 c).arrAt · 0)
      = bigSep Finset.univ fun w : Fin 5 => ((((c : Thread nD τ).loc (Pipeline.arrRef spec0 w)) ↦{(dats m 0 c).share w} (dats m 0 c).arrAt w 0) : sProp 𝕄) := by
    unfold Dat.arrays
    exact bigSep_congr fun w _ => by rw [(arr_whole0 w).set_eq_univ]
  have e : (bigSep (Finset.univ.image (Pipeline.arrRef spec0)) fun b => ((c : Thread nD τ).loc b) ↦{fullShare} V m c b : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_v0) ↦{fullShare} V m c main_v0)) :=
    bigSep_eq_bigSepL_of_eq [main_arg0, main_arg1, main_arg2, main_v0] (by decide) (by decide) _
  have hs0 : (dats m 0 c).share 0 = fullShare.left := rfl
  have hs1 : (dats m 0 c).share 1 = fullShare := rfl
  have hs2 : (dats m 0 c).share 2 = fullShare := rfl
  have hs3 : (dats m 0 c).share 3 = fullShare.right := rfl
  have hs4 : (dats m 0 c).share 4 = fullShare := rfl
  have ha : ∀ w, (dats m 0 c).arrAt w 0 = V m c (Pipeline.arrRef spec0 w) := fun w => A_eq m c w
  unfold Pipeline.arrBufs
  rw [harrays, e, bigSep_W0, hs0, hs1, hs2, hs3, hs4, ha 0, ha 1, ha 2, ha 3, ha 4]
  iintro ⟨H0, H1, H2, H4⟩
  ihave H0' := (pointsTo_share (PosShare.mem_left_op_right fullShare)).1 $$ H0
  icases H0' with ⟨H0l, H0r⟩
  isplitl [H0l]; · iexact H0l
  isplitl [H1]; · iexact H1
  isplitl [H2]; · iexact H2
  isplitl [H0r]; · iexact H0r
  iexact H4

/-! ## The run and the frame -/

set_option backward.isDefEq.respectTransparency.types false in
/-- Every weakly fair execution of @main terminates, and every final state has each window's array at what the
    write-backs computed from the proof data. -/
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0
    m ρ main (fun c => (body_obligation m c).loose) (fun _ _ => rfl) (V m) (hmain m Variants.none) (hsplit m) (hin m) (hout m)

/-- The frame: the run terminates, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 2).trans (((dats m 0 c).arrAt_in 2 rfl _).trans (A_eq m c 2))⟩) (run_main m ρ)

end Cert.KernelIdeal.Fr

end
-- ==== Proof.Spec.lean ====
/-
  The projection layer's result as one function of its three argument arrays, index by index, on the extended
  reals: for x of shape [2048, 4096], a projection matrix P of shape [4096, 4096] and a row z of shape [1, 4096],

      G x P z (p, q) = max ( (x (p, q) - ∑ k < 4096, x (p, k) · P (k, q)) + ∑ k < 4096, z (0, k) · P (k, q) , 0 ),

  that is relu (x - x·P + z·P) with the row z·P repeated down the rows. The zero is kept as the word it is printed
  with. Also here: a sum over 4096 terms is the sum of its first 2048 and its last 2048 terms, which is how a
  contraction accumulated in two blocks meets the whole contraction (addition on the extended reals is commutative
  and associative, so no finiteness is needed).
-/
import Idealize.ShloMosaic.PureOps.Ideal.Laws
import Idealize.ShloMosaic.Lib.ValueIdx

open scoped BigOperators

noncomputable section

namespace Cert.Spec

open Idealize.ShloMosaic Idealize.ShloMosaic.ValueIdx

/-- relu (x - x·P + z·P) at an index. -/
def G (x : (⟨2, ![2048, 4096]⟩ : Shape).Idx → EReal) (P : (⟨2, ![4096, 4096]⟩ : Shape).Idx → EReal)
    (z : (⟨2, ![1, 4096]⟩ : Shape).Idx → EReal) : (⟨2, ![2048, 4096]⟩ : Shape).Idx → EReal := fun i =>
  max ((x i - ∑ k : Fin 4096, x (ix2 (i 0) k) * P (ix2 k (i 1))) + ∑ k : Fin 4096, z (ix2 (0 : Fin 1) k) * P (ix2 k (i 1)))
    (Ideal.ofBits .f32 0x00000000#32)

/-- A sum of 4096 terms is the sum of the first 2048 and of the last 2048. -/
theorem sum_halves {M : Type*} [AddCommMonoid M] (f : Fin 4096 → M) :
    ∑ k : Fin 4096, f k
      = ∑ s : Fin 2048, f ⟨s.val, by omega⟩ + ∑ s : Fin 2048, f ⟨2048 + s.val, by omega⟩ := by
  show ∑ k : Fin (2048 + 2048), f k = _
  rw [Fin.sum_univ_add]
  rfl

end Cert.Spec

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.KernelIdealValue.lean ====
/-
  What the idealized kernel computes. On the extended reals every change of float format is the identity and a
  matrix product into the zero splat is the plain sum of products, so at a point whose contraction coordinate is
  the last the output block's entry (r, q) is

      max ( (x(p, c) - (∑ s < 2048, x(p, s)·P(s, c) + ∑ s < 2048, x(p, 2048 + s)·P(2048 + s, c)))
              + (∑ s < 2048, z(0, s)·P(s, c) + ∑ s < 2048, z(0, 2048 + s)·P(2048 + s, c)) , 0 )

  with (p, c) the entry's place in the whole array: the two halves of each contraction are the two points of the
  pair, the first accumulated over zero. A sum of 4096 terms is the sum of its halves, so this is the
  specification's value at (p, c). The output's blocks, one per pair of points, tile the result array.
-/
import proofs.«136320_j20916490731597_1_alg».proof.Proof.KernelIdealFrame
import proofs.«136320_j20916490731597_1_alg».proof.Proof.Spec
import proofs.«136320_j20916490731597_1_alg».proof.Proof.LibPlainDot
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

/-! ## The payloads at an index -/

/-- The tile accumulator's reset value is zero's word everywhere. -/
theorem pay1_apply (j : S512x512.Idx) : k0_pay1 (F := Ideal) j = Ideal.ofBits .f32 0x00000000#32 :=
  congrFun (shapeCast_self (broadcast S512x512 (Scalar.ofBits (F := Ideal) .f32 0x00000000#32)) shapeCasts_S512x512_S512x512) j

/-- The row accumulator's reset value likewise. -/
theorem pay2_apply (j : S1x512.Idx) : k0_pay2 (F := Ideal) j = Ideal.ofBits .f32 0x00000000#32 :=
  congrFun (shapeCast_self (broadcast S1x512 (Scalar.ofBits (F := Ideal) .f32 0x00000000#32)) shapeCasts_S1x512_S1x512) j

/-- The tile accumulator's update at (r, q): what it held plus the products along row r of the x block and column q
    of the projection block. -/
theorem pay4_apply (x0 : Vec Ideal S512x2048 .f32) (x1 : Vec Ideal S2048x512 .f32) (a : Vec Ideal S512x512 .f32) (r q : Fin 512) :
    k0_pay4 x0 x1 a (ix2 r q) = a (ix2 r q) + ∑ s : Fin 2048, x0 (ix2 r s) * x1 (ix2 s q) := by
  refine (congrFun (shapeCast_self (addf a (matmul dot_S512x2048_S2048x512_S512x512_1_0_0_1_n_n none (truncf .bf16 x0 bitsLt_bf16_f32) (k0_pay3 x1)
    (constant S512x512 .f32 0x00000000#32))) shapeCasts_S512x512_S512x512) (ix2 r q)).trans ?_
  refine congrArg (a (ix2 r q) + ·) ?_
  exact (Ideal.matmul_constant_zero_apply dot_S512x2048_S2048x512_S512x512_1_0_0_1_n_n none _ _ (ix2 r q)).trans
    (Cert.PlainDot.sum_eq dot_S512x2048_S2048x512_S512x512_1_0_0_1_n_n rfl rfl rfl rfl rfl rfl rfl rfl _ _ r q)

/-- The row accumulator's update at (0, q): what it held plus the products along the z block and column q of the
    projection block. -/
theorem pay5_apply (x1 : Vec Ideal S2048x512 .f32) (x2 : Vec Ideal S1x2048 .f32) (b : Vec Ideal S1x512 .f32) (q : Fin 512) :
    k0_pay5 x1 x2 b (ix2 (0 : Fin 1) q) = b (ix2 (0 : Fin 1) q) + ∑ s : Fin 2048, x2 (ix2 (0 : Fin 1) s) * x1 (ix2 s q) := by
  refine (congrFun (shapeCast_self (addf b (matmul dot_S1x2048_S2048x512_S1x512_1_0_0_1_n_n none (truncf .bf16 x2 bitsLt_bf16_f32) (k0_pay3 x1)
    (constant S1x512 .f32 0x00000000#32))) shapeCasts_S1x512_S1x512) (ix2 (0 : Fin 1) q)).trans ?_
  refine congrArg (b (ix2 (0 : Fin 1) q) + ·) ?_
  exact (Ideal.matmul_constant_zero_apply dot_S1x2048_S2048x512_S1x512_1_0_0_1_n_n none _ _ (ix2 (0 : Fin 1) q)).trans
    (Cert.PlainDot.sum_eq dot_S1x2048_S2048x512_S1x512_1_0_0_1_n_n rfl rfl rfl rfl rfl rfl rfl rfl _ _ (0 : Fin 1) q)

/-- The stored result at (r, q): the x entry less the tile accumulator's plus the row accumulator's entry q, rectified. -/
theorem pay6_apply (x3 a : Vec Ideal S512x512 .f32) (b : Vec Ideal S1x512 .f32) (r q : Fin 512) :
    k0_pay6 x3 a b (ix2 r q) = max ((x3 (ix2 r q) - a (ix2 r q)) + b (ix2 (0 : Fin 1) q)) (Ideal.ofBits .f32 0x00000000#32) :=
  congrArg (fun u => max ((x3 (ix2 r q) - a (ix2 r q)) + u) (Ideal.ofBits .f32 0x00000000#32))
    (broadcastTo_1b_ab_apply b broadcasts_S1x512_S512x512 r q)

/-! ## The pair's result, over variables -/

/-- The output entry of a pair of points is the specification's value at the entry's place `i` in the whole array,
    given where each block's entries sit in the argument arrays: the first point's blocks cover the contraction's
    first half, the second point's the second half. -/
theorem out_val (x0 x0' : Vec Ideal S512x2048 .f32) (x1 x1' : Vec Ideal S2048x512 .f32) (x2 x2' : Vec Ideal S1x2048 .f32)
    (x3 : Vec Ideal S512x512 .f32)
    (x : (⟨2, ![2048, 4096]⟩ : Shape).Idx → EReal) (P : (⟨2, ![4096, 4096]⟩ : Shape).Idx → EReal) (z : (⟨2, ![1, 4096]⟩ : Shape).Idx → EReal)
    (r q : Fin 512) (i : (⟨2, ![2048, 4096]⟩ : Shape).Idx)
    (h3 : x3 (ix2 r q) = x i)
    (h0' : ∀ s : Fin 2048, x0' (ix2 r s) = x (ix2 (i 0) ⟨s.val, by omega⟩))
    (h0 : ∀ s : Fin 2048, x0 (ix2 r s) = x (ix2 (i 0) ⟨2048 + s.val, by omega⟩))
    (h1' : ∀ s : Fin 2048, x1' (ix2 s q) = P (ix2 ⟨s.val, by omega⟩ (i 1)))
    (h1 : ∀ s : Fin 2048, x1 (ix2 s q) = P (ix2 ⟨2048 + s.val, by omega⟩ (i 1)))
    (h2' : ∀ s : Fin 2048, x2' (ix2 (0 : Fin 1) s) = z (ix2 (0 : Fin 1) ⟨s.val, by omega⟩))
    (h2 : ∀ s : Fin 2048, x2 (ix2 (0 : Fin 1) s) = z (ix2 (0 : Fin 1) ⟨2048 + s.val, by omega⟩)) :
    k0_pay6 x3 (k0_pay4 x0 x1 (k0_pay4 x0' x1' (k0_pay1 (F := Ideal)))) (k0_pay5 x1 x2 (k0_pay5 x1' x2' (k0_pay2 (F := Ideal)))) (ix2 r q)
      = Cert.Spec.G x P z i := by
  rw [pay6_apply, pay4_apply, pay4_apply, pay5_apply, pay5_apply, pay1_apply, pay2_apply, h3]
  unfold Cert.Spec.G
  rw [Cert.Spec.sum_halves (fun k => x (ix2 (i 0) k) * P (ix2 k (i 1))),
    Cert.Spec.sum_halves (fun k => z (ix2 (0 : Fin 1) k) * P (ix2 k (i 1)))]
  simp only [h0, h0', h1, h1', h2, h2', Ideal.ofBits_zero_f32, zero_add]

/-! ## The blocks of a pair of points, and the pair's output block -/

variable (m : (ℓ : Loc nD τ sig) → Buf (Elt Ideal) ℓ) (ρ : Dev nD → PrngReg)

/-- The point before `t`: for an odd point, the first point of its pair. -/
abbrev prevPt (t : Fin cfg0.N) : Fin cfg0.N := ⟨t.val - 1, lt_of_le_of_lt (Nat.sub_le _ _) t.isLt⟩

/-- The printed index maps at an odd point and at the point before it, decided over the grid: the two points share
    the output's block row and block column; along the contraction axis the first point has block 0, the second block 1. -/
theorem idx_facts : ∀ t : Fin cfg0.N, t.val % 2 = 1 →
    win0_0.index t (0 : Fin 2) = win0_4.index t (0 : Fin 2) ∧ win0_0.index t (1 : Fin 2) = 1
    ∧ win0_0.index (prevPt t) (0 : Fin 2) = win0_4.index t (0 : Fin 2) ∧ win0_0.index (prevPt t) (1 : Fin 2) = 0
    ∧ win0_1.index t (0 : Fin 2) = 1 ∧ win0_1.index t (1 : Fin 2) = win0_4.index t (1 : Fin 2)
    ∧ win0_1.index (prevPt t) (0 : Fin 2) = 0 ∧ win0_1.index (prevPt t) (1 : Fin 2) = win0_4.index t (1 : Fin 2)
    ∧ win0_2.index t (0 : Fin 2) = 0 ∧ win0_2.index t (1 : Fin 2) = 1
    ∧ win0_2.index (prevPt t) (0 : Fin 2) = 0 ∧ win0_2.index (prevPt t) (1 : Fin 2) = 0
    ∧ win0_3.index t (0 : Fin 2) = win0_4.index t (0 : Fin 2) ∧ win0_3.index t (1 : Fin 2) = win0_4.index t (1 : Fin 2)
    ∧ win0_4.index t (0 : Fin 2) ≤ 3 ∧ win0_4.index t (1 : Fin 2) ≤ 7 :=
  (by decide +kernel : ∀ t : Fin grid0.N, t.val % 2 = 1 → _)

/-- Every block of the result array is some odd point's. -/
theorem idx_onto : ∀ (q0 : Fin 4) (q1 : Fin 8), ∃ t : Fin cfg0.N, t.val % 2 = 1 ∧ win0_4.index t = ![q0.val, q1.val] :=
  (by decide +kernel : ∀ (q0 : Fin 4) (q1 : Fin 8), ∃ t : Fin grid0.N, t.val % 2 = 1 ∧ win0_4.index t = ![q0.val, q1.val])

theorem accAt_pair (c : Dev nD) (t : Fin cfg0.N) (h : t.val % 2 = 1) :
    accAt m c t.val t.isLt = k0_pay4 (iblk m c 0 t) (iblk m c 1 t) (k0_pay4 (iblk m c 0 (prevPt t)) (iblk m c 1 (prevPt t)) (k0_pay1 (F := Ideal))) := by
  unfold accAt; exact if_neg (by omega)
theorem rowAt_pair (c : Dev nD) (t : Fin cfg0.N) (h : t.val % 2 = 1) :
    rowAt m c t.val t.isLt = k0_pay5 (iblk m c 1 t) (iblk m c 2 t) (k0_pay5 (iblk m c 1 (prevPt t)) (iblk m c 2 (prevPt t)) (k0_pay2 (F := Ideal))) := by
  unfold rowAt; exact if_neg (by omega)

/-- The output block of an odd point, entry by entry, is the specification read at the entry's place in the result array. -/
theorem out_odd (c : Dev nD) (t : Fin cfg0.N) (h : t.val % 2 = 1) (y : S512x512.Idx) :
    outAt m c t.val t.isLt y
      = Cert.Spec.G (V m c main_arg0) (V m c main_arg1) (V m c main_arg2) (((cfg0.win 4).blk t).view.emb y) := by
  obtain ⟨r, q, rfl⟩ : ∃ (r : Fin 512) (q : Fin 512), y = ix2 r q := ⟨y 0, y 1, eq_ix2 y⟩
  obtain ⟨e00, e01, p00, p01, e10, e11, p10, p11, e20, e21, p20, p21, e30, e31, b0, b1⟩ := idx_facts t h
  have hi0 : ((((cfg0.win 4).blk t).view.emb (ix2 r q)) 0).val = win0_4.index t (0 : Fin 2) * 512 + 1 * r.val := rfl
  have hi1 : ((((cfg0.win 4).blk t).view.emb (ix2 r q)) 1).val = win0_4.index t (1 : Fin 2) * 512 + 1 * q.val := rfl
  have e : outAt m c t.val t.isLt = k0_pay6 (iblk m c 3 t)
      (k0_pay4 (iblk m c 0 t) (iblk m c 1 t) (k0_pay4 (iblk m c 0 (prevPt t)) (iblk m c 1 (prevPt t)) (k0_pay1 (F := Ideal))))
      (k0_pay5 (iblk m c 1 t) (iblk m c 2 t) (k0_pay5 (iblk m c 1 (prevPt t)) (iblk m c 2 (prevPt t)) (k0_pay2 (F := Ideal)))) := by
    unfold outAt
    exact congrArg₂ (k0_pay6 (iblk m c 3 t)) (accAt_pair m c t h) (rowAt_pair m c t h)
  refine (congrFun e (ix2 r q)).trans ?_
  refine out_val (iblk m c 0 t) (iblk m c 0 (prevPt t)) (iblk m c 1 t) (iblk m c 1 (prevPt t)) (iblk m c 2 t) (iblk m c 2 (prevPt t)) (iblk m c 3 t)
    (V m c main_arg0) (V m c main_arg1) (V m c main_arg2) r q (((cfg0.win 4).blk t).view.emb (ix2 r q)) ?_ ?_ ?_ ?_ ?_ ?_ ?_
  · show V m c main_arg0 (((cfg0.win 3).blk t).view.emb (ix2 r q)) = V m c main_arg0 (((cfg0.win 4).blk t).view.emb (ix2 r q))
    refine congrArg (V m c main_arg0) (funext fun a => Fin.ext ?_)
    match a with
    | ⟨0, _⟩ => show win0_3.index t (0 : Fin 2) * 512 + 1 * r.val = ((((cfg0.win 4).blk t).view.emb (ix2 r q)) 0).val; omega
    | ⟨1, _⟩ => show win0_3.index t (1 : Fin 2) * 512 + 1 * q.val = ((((cfg0.win 4).blk t).view.emb (ix2 r q)) 1).val; omega
  · intro s
    show V m c main_arg0 (((cfg0.win 0).blk (prevPt t)).view.emb (ix2 r s)) = V m c main_arg0 (ix2 ((((cfg0.win 4).blk t).view.emb (ix2 r q)) 0) ⟨s.val, by omega⟩)
    refine congrArg (V m c main_arg0) (funext fun a => Fin.ext ?_)
    match a with
    | ⟨0, _⟩ => show win0_0.index (prevPt t) (0 : Fin 2) * 512 + 1 * r.val = ((((cfg0.win 4).blk t).view.emb (ix2 r q)) 0).val; omega
    | ⟨1, _⟩ => show win0_0.index (prevPt t) (1 : Fin 2) * 2048 + 1 * s.val = s.val; omega
  · intro s
    show V m c main_arg0 (((cfg0.win 0).blk t).view.emb (ix2 r s)) = V m c main_arg0 (ix2 ((((cfg0.win 4).blk t).view.emb (ix2 r q)) 0) ⟨2048 + s.val, by omega⟩)
    refine congrArg (V m c main_arg0) (funext fun a => Fin.ext ?_)
    match a with
    | ⟨0, _⟩ => show win0_0.index t (0 : Fin 2) * 512 + 1 * r.val = ((((cfg0.win 4).blk t).view.emb (ix2 r q)) 0).val; omega
    | ⟨1, _⟩ => show win0_0.index t (1 : Fin 2) * 2048 + 1 * s.val = 2048 + s.val; omega
  · intro s
    show V m c main_arg1 (((cfg0.win 1).blk (prevPt t)).view.emb (ix2 s q)) = V m c main_arg1 (ix2 ⟨s.val, by omega⟩ ((((cfg0.win 4).blk t).view.emb (ix2 r q)) 1))
    refine congrArg (V m c main_arg1) (funext fun a => Fin.ext ?_)
    match a with
    | ⟨0, _⟩ => show win0_1.index (prevPt t) (0 : Fin 2) * 2048 + 1 * s.val = s.val; omega
    | ⟨1, _⟩ => show win0_1.index (prevPt t) (1 : Fin 2) * 512 + 1 * q.val = ((((cfg0.win 4).blk t).view.emb (ix2 r q)) 1).val; omega
  · intro s
    show V m c main_arg1 (((cfg0.win 1).blk t).view.emb (ix2 s q)) = V m c main_arg1 (ix2 ⟨2048 + s.val, by omega⟩ ((((cfg0.win 4).blk t).view.emb (ix2 r q)) 1))
    refine congrArg (V m c main_arg1) (funext fun a => Fin.ext ?_)
    match a with
    | ⟨0, _⟩ => show win0_1.index t (0 : Fin 2) * 2048 + 1 * s.val = 2048 + s.val; omega
    | ⟨1, _⟩ => show win0_1.index t (1 : Fin 2) * 512 + 1 * q.val = ((((cfg0.win 4).blk t).view.emb (ix2 r q)) 1).val; omega
  · intro s
    show V m c main_arg2 (((cfg0.win 2).blk (prevPt t)).view.emb (ix2 (0 : Fin 1) s)) = V m c main_arg2 (ix2 (0 : Fin 1) ⟨s.val, by omega⟩)
    refine congrArg (V m c main_arg2) (funext fun a => Fin.ext ?_)
    match a with
    | ⟨0, _⟩ => show win0_2.index (prevPt t) (0 : Fin 2) * 1 + 1 * (0 : Fin 1).val = (0 : Fin 1).val; omega
    | ⟨1, _⟩ => show win0_2.index (prevPt t) (1 : Fin 2) * 2048 + 1 * s.val = s.val; omega
  · intro s
    show V m c main_arg2 (((cfg0.win 2).blk t).view.emb (ix2 (0 : Fin 1) s)) = V m c main_arg2 (ix2 (0 : Fin 1) ⟨2048 + s.val, by omega⟩)
    refine congrArg (V m c main_arg2) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 2048 + 1 * s.val = 2048 + s.val; omega

/-! ## From the blocks to the array -/

/-- What an odd point writes back is its block of the specification. -/
theorem flushed_eq (c : Dev nD) (t : Fin cfg0.N) (hf : (cfg0.win 4).flush t = true) :
    (dats m 0 c).flushed 4 t
      = ((cfg0.win 4).blk t).view.read (Elt Ideal) (Cert.Spec.G (V m c main_arg0) (V m c main_arg1) (V m c main_arg2)) := by
  have h : t.val % 2 = 1 := (flush0_4 t).mp hf
  show (cfg0.win 4).cut (grid0.coords t) ((dats m 0 c).after 4 t) = _
  rw [after4]
  funext y
  exact out_odd m c t h y

/-- An index of the result array is in point `t`'s block iff each coordinate is in the block's range on its axis. -/
theorem mem_blk (t : Fin cfg0.N) (i : S2048x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0).slice (win0_4.rect t)).set ↔ _
  rw [View.set_slice_whole, Rect.mem_set_unit]
  exact Iff.rfl

/-- The output's blocks tile the result array: the entry (p, c) is in the block of the odd point with block row
    p / 512 and block column c / 512. -/
theorem cover (i : S2048x4096.Idx) : ∃ t : Fin cfg0.N, (cfg0.win 4).flush t = true ∧ i ∈ ((cfg0.win 4).blk t).view.set := by
  have hi0 : (i 0).val < 2048 := (i 0).isLt
  have hi1 : (i 1).val < 4096 := (i 1).isLt
  obtain ⟨t, ht1, ht⟩ := idx_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  refine ⟨t, (flush0_4 t).mpr ht1, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The result array after the run is the specification of the argument arrays. -/
theorem final (c : Dev nD) :
    (dats m 0 c).arrAt 4 cfg0.N = Cert.Spec.G (V m c main_arg0) (V m c main_arg1) (V m c main_arg2) :=
  (dats m 0 c).arrAt_eq_of_cover 4 _ (fun t hf => flushed_eq m c t hf) cover

/-- The run, read: the result array ends at the specification of the launch contents of the three arguments, which
    end unchanged. -/
theorem run : θ_run defs (onTc (τ := τ) (main (F := Ideal))) ⟨m, fun _ => 0, ρ⟩ fun r => ∀ c : Dev nD,
      r.2.mem ((c.tc : Thread nD τ).loc main_v0)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 4).trans (final m c),
     ((h c).1 0).trans (((dats m 0 c).arrAt_in 0 rfl _).trans (A_eq m c 0)),
     ((h c).1 1).trans (((dats m 0 c).arrAt_in 1 rfl _).trans (A_eq m c 1)),
     ((h c).1 2).trans (((dats m 0 c).arrAt_in 2 rfl _).trans (A_eq m c 2))⟩) (run_main m ρ)

end Cert.KernelIdeal.Val

end
-- ==== Proof.RefSide.lean ====
/-
  The reference program computes the specification: its result, read one operation at a time at an index
  (a matrix product as a sum over the contracted axis, the product of the row with the matrix repeated down
  the rows, a subtraction, an addition and a maximum with the zero splat), is relu (x - x·P + z·P).
-/
import proofs.«136320_j20916490731597_1_alg».proof.Proof.Gen.ReferenceIdeal.Read
import proofs.«136320_j20916490731597_1_alg».proof.Proof.Spec
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx

theorem lidx0_eq (i : S2048x4096.Idx) (k : Fin 4096) : lidx_main_v0 i k = ix2 (i 0) k :=
  funext fun a => Fin.ext (by match a with | ⟨0, _⟩ => rfl | ⟨1, _⟩ => rfl)
theorem ridx0_eq (i : S2048x4096.Idx) (k : Fin 4096) : ridx_main_v0 i k = ix2 k (i 1) :=
  funext fun a => Fin.ext (by match a with | ⟨0, _⟩ => rfl | ⟨1, _⟩ => rfl)
theorem lidx2_eq (i : S2048x4096.Idx) (k : Fin 4096) : lidx_main_v2 (idx_main_v3 i) k = ix2 (0 : Fin 1) k :=
  funext fun a => Fin.ext (by match a with | ⟨0, _⟩ => rfl | ⟨1, _⟩ => rfl)
theorem ridx2_eq (i : S2048x4096.Idx) (k : Fin 4096) : ridx_main_v2 (idx_main_v3 i) k = ix2 k (i 1) :=
  funext fun a => Fin.ext (by match a with | ⟨0, _⟩ => rfl | ⟨1, _⟩ => rfl)

/-- The reference's last stage is the specification of its three arguments. -/
theorem ref_eq (x : (⟨S2048x4096, .f32⟩ : BufTy).Contents (Elt Ideal)) (P : (⟨S4096x4096, .f32⟩ : BufTy).Contents (Elt Ideal))
    (z : (⟨S1x4096, .f32⟩ : BufTy).Contents (Elt Ideal)) :
    val_main_v5 (F := Ideal) x P z = Cert.Spec.G x P z := by
  funext i
  rw [val_main_v5_apply, val_main_v4_apply, val_main_v1_apply, val_main_v0_apply, val_main_v3_apply, val_main_v2_apply,
    val_main_call0_v0_apply, val_main_call0_cst_apply]
  simp only [lidx0_eq, ridx0_eq, lidx2_eq, ridx2_eq]
  rfl

end Cert.RefSide

end
-- ==== Proof.lean ====
/-
  The projection layer relu (x - x·P + z·P): the kernel against its reference, on the extended reals.

  The kernel tiles the result into 512 × 512 blocks and the contraction into two halves of 2048. For each block it
  visits two grid points: at the first it zeroes two scratch accumulators and adds the first half's products
  (the x block times the projection block; the z row times the projection block), at the second it adds the
  second half's products and stores max (x block - tile accumulator + row accumulator, 0). Operands are cast to
  bf16 before each product; on the extended reals a change of float format is the identity, and a matrix product
  into a zero accumulator is the plain sum of products. The reference computes the same expression with whole
  contractions of length 4096. A sum of 4096 terms is the sum of its two halves and zero is neutral for addition,
  both on every extended real, so the two results agree entry by entry with no appeal to the inputs' finiteness.

  Frames: the kernel's run terminates, faults nowhere and leaves its argument arrays unchanged, at the word-level
  values and at the extended reals alike (the body is run once per case, by the parity of the grid point, under an
  invariant that tracks what the accumulators hold; the first argument array is read through two windows, its
  share halved between them). The reference's frame is its run with the result dropped. The idealization rewrote
  no operation, so its conjunct is trivial.
-/
import proofs.«136320_j20916490731597_1_alg».proof.Defs
import proofs.«136320_j20916490731597_1_alg».proof.Proof.Gen.Kernel
import proofs.«136320_j20916490731597_1_alg».proof.Proof.Gen.KernelIdeal
import proofs.«136320_j20916490731597_1_alg».proof.Proof.Gen.ReferenceIdeal
import proofs.«136320_j20916490731597_1_alg».proof.Proof.Gen.Pre_finite_inputs
import proofs.«136320_j20916490731597_1_alg».proof.Proof.KernelFrame
import proofs.«136320_j20916490731597_1_alg».proof.Proof.KernelIdealValue
import proofs.«136320_j20916490731597_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at relu (x - x·P + z·P) of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Val.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.RefSide.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
